-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x4 : Shape := ⟨3, ![64, 2048, 4]⟩
abbrev S512x2 : Shape := ⟨2, ![512, 2]⟩
abbrev S_ : Shape := ⟨0, ![]⟩

class Facts : Prop where
  bcast_S_S64x2048x4 : S_.BroadcastsInDim S64x2048x4 (![] : Fin 0 → Fin S64x2048x4.rank)
  reducesTo_S64x2048x4_S_d0_1_2 : S64x2048x4.ReducesTo [0, 1, 2] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S64x2048x4 .f32) (main_arg1 : FVec F S512x2 .f32) : IVec S_ 1 :=
  let main_v0 : FVec F S64x2048x4 .f32 := Host.absf main_arg0
  let main_cst : FVec F S_ .f32 := constant S_ .f32 0x7F800000#32
  let main_v1 : FVec F S64x2048x4 .f32 := broadcastInDim S64x2048x4 ![] bcast_S_S64x2048x4 main_cst
  let main_v2 : IVec S64x2048x4 1 := cmpf .olt main_v0 main_v1
  let main_c : IVec S_ 1 := constantI S_ 1 1#1
  let main_v3 : IVec S_ 1 := (fun x v => Host.reduce IntOp.andi x v reducesTo_S64x2048x4_S_d0_1_2 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Kernel.lean ====
abbrev S64x2048x4 : Shape := ⟨3, ![64, 2048, 4]⟩
abbrev S512x2 : Shape := ⟨2, ![512, 2]⟩
abbrev S_ : Shape := ⟨0, ![]⟩
abbrev S512 : Shape := ⟨1, ![512]⟩
abbrev S1 : Shape := ⟨1, ![1]⟩
abbrev S1x512 : Shape := ⟨2, ![1, 512]⟩
abbrev S64x2048x2 : Shape := ⟨3, ![64, 2048, 2]⟩
abbrev S64x2x2048 : Shape := ⟨3, ![64, 2, 2048]⟩
abbrev S2x512 : Shape := ⟨2, ![2, 512]⟩
abbrev S8x1x1 : Shape := ⟨3, ![8, 1, 1]⟩
abbrev S8x2x2048 : Shape := ⟨3, ![8, 2, 2048]⟩
abbrev S1x1x1 : Shape := ⟨3, ![1, 1, 1]⟩
abbrev S1x512x1 : Shape := ⟨3, ![1, 512, 1]⟩
abbrev S8x512 : Shape := ⟨2, ![8, 512]⟩
abbrev S8x2x128 : Shape := ⟨3, ![8, 2, 128]⟩
abbrev S8x1x128 : Shape := ⟨3, ![8, 1, 128]⟩
abbrev S8x128 : Shape := ⟨2, ![8, 128]⟩
abbrev S8x512x128 : Shape := ⟨3, ![8, 512, 128]⟩
abbrev S8 : Shape := ⟨1, ![8]⟩
abbrev S8x1 : Shape := ⟨2, ![8, 1]⟩
abbrev S1x1 : Shape := ⟨2, ![1, 1]⟩

abbrev nBuf : Space → Nat
  | .hbm => 29
  | .vmem => 6
  | .smem => 0
  | _ => 0

abbrev bufTy : (tb : Table) → Fin (tcTables nBuf tb) → BufTy
  | .hbm, ⟨0, _⟩ => ⟨S64x2048x4, .f32⟩
  | .hbm, ⟨1, _⟩ => ⟨S512x2, .f32⟩
  | .hbm, ⟨2, _⟩ => ⟨S512x2, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S64x2048x2, .f32⟩
  | .hbm, ⟨22, _⟩ => ⟨S64x2x2048, .f32⟩
  | .hbm, ⟨23, _⟩ => ⟨S2x512, .f32⟩
  | .hbm, ⟨24, _⟩ => ⟨S8x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S8x2x2048, .f32⟩
  | .local _ .vmem, ⟨1, _⟩ => ⟨S8x2x2048, .f32⟩
  | .local _ .vmem, ⟨2, _⟩ => ⟨S2x512, .f32⟩
  | .local _ .vmem, ⟨3, _⟩ => ⟨S1x512, .f32⟩
  | .local _ .vmem, ⟨4, _⟩ => ⟨S1x1x1, .f32⟩
  | .local _ .vmem, ⟨5, _⟩ => ⟨S1x1x1, .f32⟩
  | _, _ => ⟨S64x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v9 : BitVec 32 := Scalar.muli c0_i32 c128_i32
  v9
def k0_off1 (c0_i32 : BitVec 32) : Fin 3 → Nat :=
  let c0_4 : Index := 0#32
  let c0_5 : Index := 0#32
  let c128_i32 : BitVec 32 := 128#32
  let v9 : BitVec 32 := Scalar.muli c0_i32 c128_i32
  let v10 : BitVec 32 := v9
  let v11 : Index := Scalar.indexCast v10
  ![0, 0, v11.toNat]
def k0_mult2 : BitVec 32 :=
  let c1_i32 : BitVec 32 := 1#32
  let c128_i32_7 : BitVec 32 := 128#32
  let v31 : BitVec 32 := Scalar.muli c1_i32 c128_i32_7
  v31
def k0_mult3 : BitVec 32 :=
  let c2_i32 : BitVec 32 := 2#32
  let c128_i32_11 : BitVec 32 := 128#32
  let v53 : BitVec 32 := Scalar.muli c2_i32 c128_i32_11
  v53
def k0_mult4 : BitVec 32 :=
  let c3_i32 : BitVec 32 := 3#32
  let c128_i32_15 : BitVec 32 := 128#32
  let v75 : BitVec 32 := Scalar.muli c3_i32 c128_i32_15
  v75
def k0_mult5 : BitVec 32 :=
  let c4_i32 : BitVec 32 := 4#32
  let c128_i32_19 : BitVec 32 := 128#32
  let v97 : BitVec 32 := Scalar.muli c4_i32 c128_i32_19
  v97
def k0_mult6 : BitVec 32 :=
  let c5_i32 : BitVec 32 := 5#32
  let c128_i32_23 : BitVec 32 := 128#32
  let v119 : BitVec 32 := Scalar.muli c5_i32 c128_i32_23
  v119
def k0_mult7 : BitVec 32 :=
  let c6_i32 : BitVec 32 := 6#32
  let c128_i32_27 : BitVec 32 := 128#32
  let v141 : BitVec 32 := Scalar.muli c6_i32 c128_i32_27
  v141
def k0_mult8 : BitVec 32 :=
  let c7_i32 : BitVec 32 := 7#32
  let c128_i32_31 : BitVec 32 := 128#32
  let v163 : BitVec 32 := Scalar.muli c7_i32 c128_i32_31
  v163
def k0_mult9 : BitVec 32 :=
  let c8_i32 : BitVec 32 := 8#32
  let c128_i32_35 : BitVec 32 := 128#32
  let v185 : BitVec 32 := Scalar.muli c8_i32 c128_i32_35
  v185
def k0_mult10 : BitVec 32 :=
  let c9_i32 : BitVec 32 := 9#32
  let c128_i32_39 : BitVec 32 := 128#32
  let v207 : BitVec 32 := Scalar.muli c9_i32 c128_i32_39
  v207
def k0_mult11 : BitVec 32 :=
  let c10_i32 : BitVec 32 := 10#32
  let c128_i32_43 : BitVec 32 := 128#32
  let v229 : BitVec 32 := Scalar.muli c10_i32 c128_i32_43
  v229
def k0_mult12 : BitVec 32 :=
  let c11_i32 : BitVec 32 := 11#32
  let c128_i32_47 : BitVec 32 := 128#32
  let v251 : BitVec 32 := Scalar.muli c11_i32 c128_i32_47
  v251
def k0_mult13 : BitVec 32 :=
  let c12_i32 : BitVec 32 := 12#32
  let c128_i32_51 : BitVec 32 := 128#32
  let v273 : BitVec 32 := Scalar.muli c12_i32 c128_i32_51
  v273
def k0_mult14 : BitVec 32 :=
  let c13_i32 : BitVec 32 := 13#32
  let c128_i32_55 : BitVec 32 := 128#32
  let v295 : BitVec 32 := Scalar.muli c13_i32 c128_i32_55
  v295
def k0_mult15 : BitVec 32 :=
  let c14_i32 : BitVec 32 := 14#32
  let c128_i32_59 : BitVec 32 := 128#32
  let v317 : BitVec 32 := Scalar.muli c14_i32 c128_i32_59
  v317
def k0_mult16 : BitVec 32 :=
  let c15_i32 : BitVec 32 := 15#32
  let c128_i32_63 : BitVec 32 := 128#32
  let v339 : BitVec 32 := Scalar.muli c15_i32 c128_i32_63
  v339
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x2_S512_d1 : S512x2.ReducesTo [1] S512
  h_S_ : 0 < S_.numel
  reducesTo_S512_S_d0 : S512.ReducesTo [0] S_
  bcast_S_S1 : S_.BroadcastsInDim S1 (![] : Fin 0 → Fin S1.rank)
  bcast_S1_S512_0 : S1.BroadcastsInDim S512 (![0] : Fin 1 → Fin S512.rank)
  shapeCasts_S512_S1x512 : S512.ShapeCasts S1x512
  slices_S64x2048x4_S64x2048x2_0_0_0 : S64x2048x4.Slices ![0, 0, 0] S64x2048x2
  transposes_S64x2048x2_S64x2x2048_0_2_1 : S64x2048x2.Transposes [0, 2, 1] S64x2x2048
  transposes_S512x2_S2x512_1_0 : S512x2.Transposes [1, 0] S2x512
  inb_S2x512_S1x512_0_0 : ∀ a, (![0, 0] : Fin 2 → Nat) a + S1x512.size a ≤ S2x512.size a
  h_S1x512 : 0 < S1x512.numel
  shapeCasts_S1x512_S512 : S1x512.ShapeCasts S512
  inb_S2x512_S1x512_1_0 : ∀ a, (![1, 0] : Fin 2 → Nat) a + S1x512.size a ≤ S2x512.size a
  inb_S1x512_S1x512_0_0 : ∀ a, (![0, 0] : Fin 2 → Nat) a + S1x512.size a ≤ S1x512.size a
  shapeCasts_S512_S1x512x1 : S512.ShapeCasts S1x512x1
  h_S8x2x128 : 0 < S8x2x128.numel
  shapeCasts_S8x2x128_S8x2x128 : S8x2x128.ShapeCasts S8x2x128
  slices_S8x2x128_o0_0_0_S8x1x128 : S8x2x128.Slices ![0, 0, 0] S8x1x128
  shapeCasts_S8x1x128_S8x128 : S8x1x128.ShapeCasts S8x128
  slices_S8x2x128_o0_1_0_S8x1x128 : S8x2x128.Slices ![0, 1, 0] S8x1x128
  shapeCasts_S8x128_S8x1x128 : S8x128.ShapeCasts S8x1x128
  broadcasts_S8x1x128_S8x512x128 : S8x1x128.Broadcasts S8x512x128
  broadcasts_S1x512x1_S8x512x128 : S1x512x1.Broadcasts S8x512x128
  reduces_S8x512x128_S8x512 : S8x512x128.Reduces [2] S8x512
  broadcasts_S1x512_S8x512 : S1x512.Broadcasts S8x512
  reduces_S8x512_S8 : S8x512.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  hrank0 : 0 < grid0.rank
  k0_mult1_dvd : 128 ∣ k0_mult1.toNat
  k0_off1_inb : ∀ (r : Fin 16), ∀ a, (k0_off1 (BitVec.ofNat 32 r.val)) a + S8x2x128.size a ≤ S8x2x2048.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x2048.size a ≤ S64x2x2048.size a
  hwx0_0 : ∀ i : grid0.Coords, EltTy.bits .f32 = 32 ∨ (Rect.block (s := S64x2x2048) S8x2x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x512.size a
  hwx0_1 : ∀ i : grid0.Coords, EltTy.bits .f32 = 32 ∨ (Rect.block (s := S2x512) S2x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_v14) S8x2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x4 : Shape := ⟨3, ![64, 2048, 4]⟩
abbrev S512x2 : Shape := ⟨2, ![512, 2]⟩
abbrev S_ : Shape := ⟨0, ![]⟩
abbrev S512 : Shape := ⟨1, ![512]⟩
abbrev S1 : Shape := ⟨1, ![1]⟩
abbrev S64x2048x2 : Shape := ⟨3, ![64, 2048, 2]⟩
abbrev S64x1x2048x2 : Shape := ⟨4, ![64, 1, 2048, 2]⟩
abbrev S1x512x1x2 : Shape := ⟨4, ![1, 512, 1, 2]⟩
abbrev S64x512x2048x2 : Shape := ⟨4, ![64, 512, 2048, 2]⟩
abbrev S64x512x2048 : Shape := ⟨3, ![64, 512, 2048]⟩
abbrev S64x512 : Shape := ⟨2, ![64, 512]⟩
abbrev S1x512 : Shape := ⟨2, ![1, 512]⟩
abbrev S64 : Shape := ⟨1, ![64]⟩

abbrev nBuf : Space → Nat
  | .hbm => 41
  | .vmem => 0
  | .smem => 0
  | _ => 0

abbrev bufTy : (tb : Table) → Fin (tcTables nBuf tb) → BufTy
  | .hbm, ⟨0, _⟩ => ⟨S64x2048x4, .f32⟩
  | .hbm, ⟨1, _⟩ => ⟨S512x2, .f32⟩
  | .hbm, ⟨2, _⟩ => ⟨S512x2, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S512, .f32⟩
  | .hbm, ⟨19, _⟩ => ⟨S512, .f32⟩
  | .hbm, ⟨20, _⟩ => ⟨S64x2048x2, .f32⟩
  | .hbm, ⟨21, _⟩ => ⟨S64x1x2048x2, .f32⟩
  | .hbm, ⟨22, _⟩ => ⟨S1x512x1x2, .f32⟩
  | .hbm, ⟨23, _⟩ => ⟨S64x512x2048x2, .f32⟩
  | .hbm, ⟨24, _⟩ => ⟨S64x512x2048x2, .f32⟩
  | .hbm, ⟨25, _⟩ => ⟨S64x512x2048x2, .f32⟩
  | .hbm, ⟨26, _⟩ => ⟨S64x512x2048x2, .f32⟩
  | .hbm, ⟨27, _⟩ => ⟨S_, .f32⟩
  | .hbm, ⟨28, _⟩ => ⟨S64x512x2048, .f32⟩
  | .hbm, ⟨29, _⟩ => ⟨S_, .f32⟩
  | .hbm, ⟨30, _⟩ => ⟨S64x512, .f32⟩
  | .hbm, ⟨31, _⟩ => ⟨S1x512, .f32⟩
  | .hbm, ⟨32, _⟩ => ⟨S64x512, .f32⟩
  | .hbm, ⟨33, _⟩ => ⟨S64x512, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | _, _ => ⟨S64x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  reducesTo_S512x2_S512_d1 : S512x2.ReducesTo [1] S512
  h_S_ : 0 < S_.numel
  reducesTo_S512_S_d0 : S512.ReducesTo [0] S_
  bcast_S_S1 : S_.BroadcastsInDim S1 (![] : Fin 0 → Fin S1.rank)
  bcast_S1_S512_0 : S1.BroadcastsInDim S512 (![0] : Fin 1 → Fin S512.rank)
  slices_S64x2048x4_S64x2048x2_0_0_0 : S64x2048x4.Slices ![0, 0, 0] S64x2048x2
  bcast_S64x2048x2_S64x1x2048x2_0_2_3 : S64x2048x2.BroadcastsInDim S64x1x2048x2 (![0, 2, 3] : Fin 3 → Fin S64x1x2048x2.rank)
  bcast_S512x2_S1x512x1x2_1_3 : S512x2.BroadcastsInDim S1x512x1x2 (![1, 3] : Fin 2 → Fin S1x512x1x2.rank)
  bcast_S64x1x2048x2_S64x512x2048x2_0_1_2_3 : S64x1x2048x2.BroadcastsInDim S64x512x2048x2 (![0, 1, 2, 3] : Fin 4 → Fin S64x512x2048x2.rank)
  bcast_S1x512x1x2_S64x512x2048x2_0_1_2_3 : S1x512x1x2.BroadcastsInDim S64x512x2048x2 (![0, 1, 2, 3] : Fin 4 → Fin S64x512x2048x2.rank)
  reducesTo_S64x512x2048x2_S64x512x2048_d3 : S64x512x2048x2.ReducesTo [3] S64x512x2048
  reducesTo_S64x512x2048_S64x512_d2 : S64x512x2048.ReducesTo [2] S64x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  reducesTo_S64x512_S64_d1 : S64x512.ReducesTo [1] S64
  bcast_S_S64 : S_.BroadcastsInDim S64 (![] : Fin 0 → Fin S64.rank)
  reducesTo_S64_S_d0 : S64.ReducesTo [0] S_

variable [Facts₀]

class Facts : Prop extends Facts₀ where

variable [Facts]
-- ==== Proof.Spec.lean ====
/-
  The mathematics of the chamfer-style loss, on the extended reals, with no program in sight.

  For a batch row `b` and a target `m` the quantity of interest is the smallest squared planar distance from the
  target to the row's 2048 trajectory points; the loss weights it by the target's softmin weight, sums over targets
  and rows, and divides by the number of targets. Two arrangements of that computation are compared later:
  one takes the minimum in 16 runs of 128 points and divides the grand total by 512; the other takes it over all 2048
  points at once and divides each row's total by 512 before adding the rows. This module proves the three facts that
  make them one number:
    * a lower bound of every entry of every run is a lower bound of every entry (`forall_runs_iff`), so a value whose
      lower bounds are exactly those is the minimum over all points (`eq_fold_min_of_runs`);
    * 64 rows summed as 8 groups of 8 are the 64 rows summed (`sum_groups`);
    * dividing by 512 commutes with finite sums at EVERY extended real, the infinities included, because multiplication by
      a nonnegative real distributes over the extended reals' addition (`div512_sum`).
  It also reads the three float patterns the programs spell: `+inf`, `0.0` and `512.0`.
-/
import Idealize.ShloMosaic.PureOps.Ideal
import Idealize.ShloMosaic.PureOps.Ideal.Laws

noncomputable section

namespace Cert.Chamfer

open Idealize.ShloMosaic

/-- The squared planar distance between the points `(a0, a1)` and `(b0, b1)`. -/
def sqd (a0 a1 b0 b1 : EReal) : EReal := (a0 - b0) * (a0 - b0) + (a1 - b1) * (a1 - b1)

/-! ## The float patterns -/

/-- The pattern `0x7F800000` is `+inf`, the top of the extended reals: the neutral element of a minimum. -/
theorem ofBits_inf : Ideal.ofBits .f32 0x7F800000#32 = (⊤ : EReal) := by
  simp [Ideal.ofBits, Ideal.ieee]

/-- The pattern `0x44000000` is the real number 512. -/
theorem ofBits_512 : Ideal.ofBits .f32 0x44000000#32 = ((512 : ℝ) : EReal) := by
  simp [Ideal.ofBits, Ideal.ieee, -EReal.coe_mul]; norm_num

/-- The pattern `0x00000000` is zero. -/
theorem ofBits_zero : Ideal.ofBits .f32 0x00000000#32 = (0 : EReal) := by
  simp [Ideal.ofBits, Ideal.ieee]

/-! ## A minimum over 2048 points taken in 16 runs of 128 -/

/-- A property holds of every point `128 k + l` (run `k`, place `l`) exactly when it holds of every point. -/
theorem forall_runs_iff (P : Fin 2048 → Prop) :
    (∀ (k : Fin 16) (l : Fin 128), P ⟨128 * k.val + l.val, by omega⟩) ↔ ∀ n : Fin 2048, P n := by
  constructor
  · intro h n
    have hn : P ⟨128 * (n.val / 128) + n.val % 128, by omega⟩ :=
      h ⟨n.val / 128, by omega⟩ ⟨n.val % 128, Nat.mod_lt _ (by norm_num)⟩
    have e : (⟨128 * (n.val / 128) + n.val % 128, by omega⟩ : Fin 2048) = n := Fin.ext (Nat.div_add_mod n.val 128)
    exact (congrArg P e).mp hn
  · intro h k l
    exact h _

/-- A value whose lower bounds are exactly the lower bounds of every run's every entry is the minimum, from `+inf`,
    over all 2048 points. -/
theorem eq_fold_min_of_runs (g : Fin 2048 → EReal) (D : EReal)
    (hD : ∀ c : EReal, c ≤ D ↔ ∀ (k : Fin 16) (l : Fin 128), c ≤ g ⟨128 * k.val + l.val, by omega⟩) :
    D = (Finset.univ : Finset (Fin 2048)).fold min ⊤ g := by
  refine eq_of_forall_le_iff fun c => ?_
  rw [hD c, Finset.le_fold_min, forall_runs_iff (fun n => c ≤ g n)]
  simp

/-! ## 64 rows as 8 groups of 8 -/

/-- Summing the 64 rows group by group (group `t` holds rows `8 t` to `8 t + 7`) sums the 64 rows. -/
theorem sum_groups (a : Fin 64 → EReal) :
    ∑ t : Fin 8, ∑ r : Fin 8, a ⟨8 * t.val + r.val, by omega⟩ = ∑ b : Fin 64, a b := by
  have e := (Equiv.sum_comp (finProdFinEquiv : Fin 8 × Fin 8 ≃ Fin (8 * 8)) (fun b : Fin (8 * 8) => a b)).symm
  refine Eq.trans ?_ e.symm
  rw [Fintype.sum_prod_type]
  refine Finset.sum_congr rfl fun t _ => Finset.sum_congr rfl fun r _ => ?_
  exact congrArg a (Fin.ext (by simp [finProdFinEquiv]; omega))

/-! ## Division by 512 and finite sums -/

/-- Multiplication by the real `1/512` distributes over the extended reals' addition, at every pair of values. -/
theorem add_mul_inv512 (y z : EReal) :
    (y + z) * ((1 / 512 : ℝ) : EReal) = y * ((1 / 512 : ℝ) : EReal) + z * ((1 / 512 : ℝ) : EReal) :=
  EReal.right_distrib_of_nonneg_of_ne_top (by exact_mod_cast (by norm_num : (0 : ℝ) ≤ 1 / 512)) (EReal.coe_ne_top _) y z

/-- The ideal division by 512 is that multiplication. -/
theorem div512 (x : EReal) : Ideal.div x ((512 : ℝ) : EReal) = x * ((1 / 512 : ℝ) : EReal) :=
  Ideal.div_coe (by norm_num : (512 : ℝ) ≠ 0) x

/-- So division by 512 commutes with a finite sum. -/
theorem div512_sum {ι : Type} (s : Finset ι) (a : ι → EReal) :
    Ideal.div (∑ i ∈ s, a i) ((512 : ℝ) : EReal) = ∑ i ∈ s, Ideal.div (a i) ((512 : ℝ) : EReal) := by
  classical
  simp only [div512]
  induction s using Finset.induction_on with
  | empty => simp
  | insert i s hi ih => rw [Finset.sum_insert hi, Finset.sum_insert hi, add_mul_inv512, ih]

end Cert.Chamfer

end
-- ==== Proof.RunMin.lean ====
/-
  One run of 128 trajectory points against all 512 targets.

  The kernel body handles the 2048 points of its eight batch rows in sixteen runs of 128. For a run it holds the
  block `xc` of shape [8, 2, 128] (row, channel, place), splits the two channels, spreads each along a new target axis,
  subtracts the targets' coordinates `t0`, `t1` (each of shape [1, 512, 1]) spread along rows and places, squares, adds,
  and takes the minimum along the places. `runDist` is that [8, 512, 128] tensor of squared distances and `runMin` its
  minimum along the last axis, written with the same operations in the same order as the printed body, for any float
  instance. At the ideal instance, entry (r, m, l) of `runDist` is the squared planar distance between point `l` of row
  `r` and target `m` (`runDist_apply`), and entry (r, m) of `runMin` is the minimum of those over the 128 places,
  from `+inf` (`runMin_apply`); its lower bounds are the common lower bounds of the 128 distances (`le_runMin_iff`).
-/
import proofs.«173565_j38259568673143_2_alg».proof.Proof.Gen.KernelIdeal
import proofs.«173565_j38259568673143_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Chamfer

variable {F : FTy → Type} [FloatOps F]

/-- Channel `0` of a run's block, kept as an [8, 1, 128] vector (the body squeezes the unit axis and puts it back). -/
def chan0 (xc : FVec F S8x2x128 .f32) : FVec F S8x1x128 .f32 :=
  shapeCast S8x1x128 (shapeCast S8x128 (extractStridedSlice S8x1x128 ![0, 0, 0]
    (shapeCast S8x2x128 xc Gen.shapeCasts_S8x2x128_S8x2x128) Gen.slices_S8x2x128_o0_0_0_S8x1x128)
    Gen.shapeCasts_S8x1x128_S8x128) Gen.shapeCasts_S8x128_S8x1x128

/-- Channel `1` of a run's block, likewise. -/
def chan1 (xc : FVec F S8x2x128 .f32) : FVec F S8x1x128 .f32 :=
  shapeCast S8x1x128 (shapeCast S8x128 (extractStridedSlice S8x1x128 ![0, 1, 0]
    (shapeCast S8x2x128 xc Gen.shapeCasts_S8x2x128_S8x2x128) Gen.slices_S8x2x128_o0_1_0_S8x1x128)
    Gen.shapeCasts_S8x1x128_S8x128) Gen.shapeCasts_S8x128_S8x1x128

/-- A channel spread over the 512 targets minus a target coordinate spread over rows and places. -/
def diff (t : FVec F S1x512x1 .f32) (p : FVec F S8x1x128 .f32) : FVec F S8x512x128 .f32 :=
  subf (broadcastTo S8x512x128 p Gen.broadcasts_S8x1x128_S8x512x128)
    (broadcastTo S8x512x128 t Gen.broadcasts_S1x512x1_S8x512x128)

/-- The run's squared distances: (row, target, place). -/
def runDist (t0 t1 : FVec F S1x512x1 .f32) (xc : FVec F S8x2x128 .f32) : FVec F S8x512x128 .f32 :=
  addf (mulf (diff t0 (chan0 xc)) (diff t0 (chan0 xc))) (mulf (diff t1 (chan1 xc)) (diff t1 (chan1 xc)))

/-- The run's minimum along the places: (row, target). -/
def runMin (t0 t1 : FVec F S1x512x1 .f32) (xc : FVec F S8x2x128 .f32) : FVec F S8x512 .f32 :=
  multiReduction .minimumf [2] S8x512 (runDist t0 t1 xc) 0x7F800000#32 Gen.reduces_S8x512x128_S8x512 (.inl rfl) rfl

/-! ## Read at an index, at the ideal instance -/

/-- Channel `0` at (r, ·, l) is the block at (r, 0, l): the casts re-lay nothing and the slice starts at channel 0. -/
theorem chan0_apply (xc : FVec Ideal S8x2x128 .f32) (r : Fin 8) (l : Fin 128) :
    chan0 xc (ix3 r (0 : Fin 1) l) = xc (ix3 r (0 : Fin 2) l) := by
  unfold chan0
  rw [shapeCast_shapeCast, shapeCast_self]
  exact extractStridedSlice_apply _ xc _ (ix3 r (0 : Fin 1) l) (ix3 r (0 : Fin 2) l) (fun a => match a with
    | ⟨0, _⟩ => by show r.val = 0 + r.val; omega
    | ⟨1, _⟩ => by show (0 : Nat) = 0 + 0; rfl
    | ⟨2, _⟩ => by show l.val = 0 + l.val; omega)

/-- Channel `1` at (r, ·, l) is the block at (r, 1, l). -/
theorem chan1_apply (xc : FVec Ideal S8x2x128 .f32) (r : Fin 8) (l : Fin 128) :
    chan1 xc (ix3 r (0 : Fin 1) l) = xc (ix3 r (1 : Fin 2) l) := by
  unfold chan1
  rw [shapeCast_shapeCast, shapeCast_self]
  exact extractStridedSlice_apply _ xc _ (ix3 r (0 : Fin 1) l) (ix3 r (1 : Fin 2) l) (fun a => match a with
    | ⟨0, _⟩ => by show r.val = 0 + r.val; omega
    | ⟨1, _⟩ => by show (1 : Nat) = 1 + 0; rfl
    | ⟨2, _⟩ => by show l.val = 0 + l.val; omega)

/-- The difference at (r, m, l): the channel at (r, ·, l) minus the target coordinate at (·, m, ·). -/
theorem diff_apply (t : FVec Ideal S1x512x1 .f32) (p : FVec Ideal S8x1x128 .f32) (r : Fin 8) (m : Fin 512) (l : Fin 128) :
    diff t p (ix3 r m l) = p (ix3 r (0 : Fin 1) l) - t (ix3 (0 : Fin 1) m (0 : Fin 1)) := by
  unfold diff
  rw [subf_apply]
  congr 1
  · exact broadcastTo_apply p _ (ix3 r m l) (ix3 r (0 : Fin 1) l) (fun a => match a with
      | ⟨0, _⟩ => by show r.val = if (8 : Nat) = 1 then 0 else r.val; rw [if_neg (by decide)]
      | ⟨1, _⟩ => by show (0 : Nat) = if (1 : Nat) = 1 then 0 else m.val; rw [if_pos rfl]
      | ⟨2, _⟩ => by show l.val = if (128 : Nat) = 1 then 0 else l.val; rw [if_neg (by decide)])
  · exact broadcastTo_apply t _ (ix3 r m l) (ix3 (0 : Fin 1) m (0 : Fin 1)) (fun a => match a with
      | ⟨0, _⟩ => by show (0 : Nat) = if (1 : Nat) = 1 then 0 else r.val; rw [if_pos rfl]
      | ⟨1, _⟩ => by show m.val = if (512 : Nat) = 1 then 0 else m.val; rw [if_neg (by decide)]
      | ⟨2, _⟩ => by show (0 : Nat) = if (1 : Nat) = 1 then 0 else l.val; rw [if_pos rfl])

/-- The run's tensor at (r, m, l) is the squared distance between point `l` of row `r` and target `m`. -/
theorem runDist_apply (t0 t1 : FVec Ideal S1x512x1 .f32) (xc : FVec Ideal S8x2x128 .f32) (r : Fin 8) (m : Fin 512) (l : Fin 128) :
    runDist t0 t1 xc (ix3 r m l)
      = sqd (xc (ix3 r (0 : Fin 2) l)) (xc (ix3 r (1 : Fin 2) l)) (t0 (ix3 (0 : Fin 1) m (0 : Fin 1))) (t1 (ix3 (0 : Fin 1) m (0 : Fin 1))) := by
  unfold runDist sqd
  rw [addf_apply, mulf_apply, mulf_apply, diff_apply, diff_apply, chan0_apply, chan1_apply]

/-- Putting place `k` back into the reduced index (r, m) gives (r, m, k). -/
theorem lift_rm (h : S8x512x128.Reduces [2] S8x512) (r : Fin 8) (m : Fin 512) (k : Fin (S8x512x128.size 2)) :
    h.lift (ix2 r m) k = ix3 r m (⟨k.val, k.isLt⟩ : Fin 128) := by
  funext c; apply Fin.ext
  match c with
  | ⟨0, _⟩ => rfl
  | ⟨1, _⟩ => rfl
  | ⟨2, _⟩ => rfl

/-- The run's minimum at (r, m): the least of the 128 squared distances, from `+inf`. -/
theorem runMin_apply (t0 t1 : FVec Ideal S1x512x1 .f32) (xc : FVec Ideal S8x2x128 .f32) (r : Fin 8) (m : Fin 512) :
    runMin t0 t1 xc (ix2 r m)
      = (Finset.univ : Finset (Fin 128)).fold min (⊤ : EReal) (fun l =>
          sqd (xc (ix3 r (0 : Fin 2) l)) (xc (ix3 r (1 : Fin 2) l)) (t0 (ix3 (0 : Fin 1) m (0 : Fin 1))) (t1 (ix3 (0 : Fin 1) m (0 : Fin 1)))) := by
  unfold runMin
  refine (multiReduction_minimumf_eq_fold (runDist t0 t1 xc) 0x7F800000#32 Gen.reduces_S8x512x128_S8x512 (.inl rfl) rfl (ix2 r m)).trans ?_
  refine (Gen.reduces_S8x512x128_S8x512.fold_filter_drop_single _ _ _ (ix2 r m)).trans ?_
  show (Finset.univ : Finset (Fin 128)).fold min (Ideal.ofBits .f32 0x7F800000#32) (runDist t0 t1 xc ∘ Gen.reduces_S8x512x128_S8x512.lift (ix2 r m)) = _
  rw [ofBits_inf]
  refine congrArg (fun f => Finset.fold min (⊤ : EReal) f (Finset.univ : Finset (Fin 128))) (funext fun l => ?_)
  show runDist t0 t1 xc (Gen.reduces_S8x512x128_S8x512.lift (ix2 r m) l) = _
  rw [lift_rm Gen.reduces_S8x512x128_S8x512 r m l]
  exact runDist_apply t0 t1 xc r m l

/-- A lower bound of the run's minimum at (r, m) is a lower bound of each of its 128 squared distances. -/
theorem le_runMin_iff (t0 t1 : FVec Ideal S1x512x1 .f32) (xc : FVec Ideal S8x2x128 .f32) (r : Fin 8) (m : Fin 512) (c : EReal) :
    c ≤ runMin t0 t1 xc (ix2 r m) ↔ ∀ l : Fin 128,
      c ≤ sqd (xc (ix3 r (0 : Fin 2) l)) (xc (ix3 r (1 : Fin 2) l)) (t0 (ix3 (0 : Fin 1) m (0 : Fin 1))) (t1 (ix3 (0 : Fin 1) m (0 : Fin 1))) := by
  rw [runMin_apply, Finset.le_fold_min]
  simp

end Cert.KernelIdeal.Body

end
-- ==== Proof.Body.lean ====
/-
  What one grid point of the kernel computes.

  A grid point holds eight batch rows. Its body keeps a running minimum per (row, target), starting at `+inf`, and folds
  in the sixteen runs of 128 points one after the other (`accMin`: after `n` runs); then it multiplies by the targets'
  weights spread over the rows, sums along the targets, sums along the eight rows, and stores the one number
  (`total`). `blockOut` is their composition, written for any float instance with the body's own operations, and
  `out_eq` says the generated run's found store is exactly that function of the three staged blocks: the printed
  body's sixteen unrolled copies fold into the recursion by definitional unfolding only.

  At the ideal instance: a lower bound of the running minimum after `n` runs is a common lower bound of the squared
  distances to all points of the first `n` runs (`le_accMin_iff`), and the stored number is the double sum, over the
  eight rows and the 512 targets, of the final minimum times the target's weight (`total_apply`).
-/
import proofs.«173565_j38259568673143_2_alg».proof.Proof.Gen.KernelIdeal.Frame
import proofs.«173565_j38259568673143_2_alg».proof.Proof.RunMin
import Idealize.ShloMosaic.Lib.Pipeline.Value
import Idealize.ShloMosaic.Lib.Tactic

noncomputable section

namespace Cert.KernelIdeal.Body

open Idealize.ShloMosaic Idealize.ShloMosaic.TcCoe Idealize.ShloMosaic.ValueIdx Idealize.SL.Sem
open Cert.KernelIdeal Cert.KernelIdeal.Gen Cert.Chamfer

variable {F : FTy → Type} [FloatOps F]

/-- Run `k` occupies places `128 k` to `128 k + 127` of the staged [8, 2, 2048] block. -/
theorem run_inb (k : Fin 16) : ∀ a, (![0, 0, 128 * k.val] : Fin 3 → Nat) a + S8x2x128.size a ≤ S8x2x2048.size a := by
  intro a
  match a with
  | ⟨0, _⟩ => show 0 + 8 ≤ 8; omega
  | ⟨1, _⟩ => show 0 + 2 ≤ 2; omega
  | ⟨2, _⟩ => show 128 * k.val + 128 ≤ 2048; omega

/-- Run `k` of the staged block. -/
def runOf (x0 : Vec F S8x2x2048 .f32) (k : Fin 16) : FVec F S8x2x128 .f32 :=
  View.ld x0 (Rect.unit (s := S8x2x2048) ![0, 0, 128 * k.val] S8x2x128.size (run_inb k))

/-- The running minimum per (row, target) after the first `n` runs. -/
def accMin (t0 t1 : FVec F S1x512x1 .f32) (xs : Fin 16 → FVec F S8x2x128 .f32) : (n : ℕ) → n ≤ 16 → FVec F S8x512 .f32
  | 0, _ => broadcast S8x512 (Scalar.ofBits .f32 0x7F800000#32)
  | n + 1, h => minimumf (accMin t0 t1 xs n (Nat.le_of_succ_le h)) (runMin t0 t1 (xs ⟨n, h⟩))

/-- The weighted total of a point's minima: times the weights, summed along targets, then along rows. -/
def total (w : FVec F S512 .f32) (d : FVec F S8x512 .f32) : FVec F S1x1x1 .f32 :=
  shapeCast S1x1x1 (shapeCast S1x1 (multiReduction .add [0] S1 (shapeCast S8x1 (multiReduction .add [1] S8
    (mulf d (broadcastTo S8x512 (shapeCast S1x512 w Gen.shapeCasts_S512_S1x512) Gen.broadcasts_S1x512_S8x512))
    0x00000000#32 Gen.reduces_S8x512_S8 (.inl rfl) rfl) Gen.shapeCasts_S8_S8x1) 0x00000000#32 Gen.reduces_S8x1_S1 (.inl rfl) rfl)
    Gen.shapeCasts_S1_S1x1) Gen.shapeCasts_S1x1_S1x1x1

/-- What the body stores, of the weights, the two target coordinates and the sixteen runs. -/
def blockOut (w : FVec F S512 .f32) (t0 t1 : FVec F S1x512x1 .f32) (xs : Fin 16 → FVec F S8x2x128 .f32) : FVec F S1x1x1 .f32 :=
  total w (accMin t0 t1 xs 16 le_rfl)

/-- The weights as the body reads them off its staged [1, 512] block. -/
def wOf (x2 : Vec F S1x512 .f32) : FVec F S512 .f32 :=
  k0_pay2 (View.ld x2 (Rect.unit (s := S1x512) ![0, 0] S1x512.size Gen.inb_S1x512_S1x512_0_0))

/-- The targets' first coordinate as the body reads it off row 0 of its staged [2, 512] block. -/
def t0Of (x1 : Vec F S2x512 .f32) : FVec F S1x512x1 .f32 :=
  k0_pay3 (View.ld x1 (Rect.unit (s := S2x512) ![0, 0] S1x512.size Gen.inb_S2x512_S1x512_0_0))

/-- The targets' second coordinate, off row 1. -/
def t1Of (x1 : Vec F S2x512 .f32) : FVec F S1x512x1 .f32 :=
  k0_pay4 (View.ld x1 (Rect.unit (s := S2x512) ![1, 0] S1x512.size Gen.inb_S2x512_S1x512_1_0))

theorem hz3 : (![0, 0, 0] : Fin 3 → Nat) = fun _ => 0 := funext fun a => by fin_cases a <;> rfl

set_option maxRecDepth 65536 in
/-- The run's one found store is `blockOut` of the staged blocks. -/
theorem out_eq (c : Dev nD) (i : grid0.Coords) (a1 : Memref sig .tc .vmem S8x2x2048 .f32) (h1 : a1.IsWhole)
    (a2 : Memref sig .tc .vmem S2x512 .f32) (h2 : a2.IsWhole) (a3 : Memref sig .tc .vmem S1x512 .f32) (h3 : a3.IsWhole)
    (a4 : Memref sig .tc .vmem S1x1x1 .f32) (h4 : a4.IsWhole)
    (x0 : Vec F S8x2x2048 .f32) (x1 : Vec F S2x512 .f32) (x2 : Vec F S1x512 .f32) :
    out0_A_3 c i a1 h1 a2 h2 a3 h3 a4 h4 x0 x1 x2 = blockOut (wOf x2) (t0Of x1) (t1Of x1) (runOf x0) := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz3]
  simp only [View.readAt_eq_ld, h1.read_unread, h2.read_unread, h3.read_unread]
  rfl

end Cert.KernelIdeal.Body

end
-- ==== Proof.BodyRead.lean ====
/-
  The body's value read entry by entry, at the ideal instance.

  * Run `k` of the staged [8, 2, 2048] block at (r, c, l) is the block at (r, c, 128 k + l) (`runOf_apply`).
  * The weights, and the targets' two coordinates, as the body re-lays them, are the staged blocks' rows
    (`wOf_apply`, `t0Of_apply`, `t1Of_apply`).
  * A lower bound of the running minimum after `n` runs, at (r, m), is a common lower bound of the squared distances
    between target `m` and every point of the first `n` runs of row `r` (`le_accMin_iff`, by induction on `n`:
    the minimum of two numbers is bounded below exactly by their common lower bounds).
  * The stored number is the sum over the eight rows of the sum over the 512 targets of the minimum times the weight
    (`total_apply`): both lane sums start from the zero pattern, which is the neutral element, so no initial term
    is left.
-/
import proofs.«173565_j38259568673143_2_alg».proof.Proof.Body

noncomputable section

namespace Cert.KernelIdeal.Body

open Idealize.ShloMosaic Idealize.ShloMosaic.TcCoe Idealize.ShloMosaic.ValueIdx Idealize.SL.Sem
open Cert.KernelIdeal Cert.KernelIdeal.Gen Cert.Chamfer

theorem hz2 : (![0, 0] : Fin 2 → Nat) = fun _ => 0 := funext fun a => by fin_cases a <;> rfl

/-- Entry (r, c, l) of run `k` is entry (r, c, 128 k + l) of the staged block. -/
theorem runOf_apply {F : FTy → Type} [FloatOps F] (x0 : Vec F S8x2x2048 .f32) (k : Fin 16) (r : Fin 8) (ch : Fin 2) (l : Fin 128) :
    runOf x0 k (ix3 r ch l) = x0 (ix3 r ch (⟨128 * k.val + l.val, by omega⟩ : Fin 2048)) := by
  unfold runOf
  show x0 _ = x0 _
  refine congrArg x0 (funext fun a => Fin.ext ?_)
  match a with
  | ⟨0, _⟩ => show 0 + 1 * r.val = r.val; omega
  | ⟨1, _⟩ => show 0 + 1 * ch.val = ch.val; omega
  | ⟨2, _⟩ => show 128 * k.val + 1 * l.val = 128 * k.val + l.val; omega

/-- Weight `m` is entry (0, m) of the staged weights. -/
theorem wOf_apply (x2 : Vec Ideal S1x512 .f32) (m : Fin 512) : wOf x2 (ix1 m) = x2 (ix2 (0 : Fin 1) m) := by
  unfold wOf k0_pay2
  rw [View.ld_unit_zero (S := S1x512) hz2]
  exact shapeCast_1a_a_apply x2 _ m

/-- A [512] vector cast to [1, 512, 1] reads, at (·, m, ·), the vector at `m`: the same row-major place. -/
theorem cast_column_apply (v : FVec Ideal S512 .f32) (h : S512.ShapeCasts S1x512x1) (m : Fin 512) :
    shapeCast S1x512x1 v h (ix3 (0 : Fin 1) m (0 : Fin 1)) = v (ix1 m) :=
  shapeCast_apply v h _ _ (by
    rw [Shape.rowMajor_val_three, Shape.rowMajor_val_one]
    show m.val = (0 * 512 + m.val) * 1 + 0
    omega)

/-- The targets' first coordinate at `m` is entry (0, m) of the staged targets. -/
theorem t0Of_apply (x1 : Vec Ideal S2x512 .f32) (m : Fin 512) :
    t0Of x1 (ix3 (0 : Fin 1) m (0 : Fin 1)) = x1 (ix2 (0 : Fin 2) m) := by
  unfold t0Of k0_pay3
  refine (cast_column_apply _ _ m).trans ?_
  refine (shapeCast_1a_a_apply _ _ m).trans ?_
  show x1 _ = x1 _
  refine congrArg x1 (funext fun a => Fin.ext ?_)
  match a with
  | ⟨0, _⟩ => show 0 + 1 * 0 = 0; rfl
  | ⟨1, _⟩ => show 0 + 1 * m.val = m.val; omega

/-- The targets' second coordinate at `m` is entry (1, m) of the staged targets. -/
theorem t1Of_apply (x1 : Vec Ideal S2x512 .f32) (m : Fin 512) :
    t1Of x1 (ix3 (0 : Fin 1) m (0 : Fin 1)) = x1 (ix2 (1 : Fin 2) m) := by
  unfold t1Of k0_pay4
  refine (cast_column_apply _ _ m).trans ?_
  refine (shapeCast_1a_a_apply _ _ m).trans ?_
  show x1 _ = x1 _
  refine congrArg x1 (funext fun a => Fin.ext ?_)
  match a with
  | ⟨0, _⟩ => show 1 + 1 * 0 = 1; rfl
  | ⟨1, _⟩ => show 0 + 1 * m.val = m.val; omega

/-- A lower bound of the running minimum after `n` runs is a lower bound of every squared distance of those runs. -/
theorem le_accMin_iff (t0 t1 : FVec Ideal S1x512x1 .f32) (xs : Fin 16 → FVec Ideal S8x2x128 .f32) (r : Fin 8) (m : Fin 512) (c : EReal) :
    ∀ (n : ℕ) (h : n ≤ 16), c ≤ accMin t0 t1 xs n h (ix2 r m) ↔
      ∀ k : Fin 16, k.val < n → ∀ l : Fin 128,
        c ≤ sqd (xs k (ix3 r (0 : Fin 2) l)) (xs k (ix3 r (1 : Fin 2) l)) (t0 (ix3 (0 : Fin 1) m (0 : Fin 1))) (t1 (ix3 (0 : Fin 1) m (0 : Fin 1)))
  | 0, h => by
    show c ≤ Ideal.ofBits .f32 0x7F800000#32 ↔ _
    rw [ofBits_inf]
    exact ⟨fun _ k hk => absurd hk (Nat.not_lt_zero _), fun _ => le_top⟩
  | n + 1, h => by
    show c ≤ min (accMin t0 t1 xs n (Nat.le_of_succ_le h) (ix2 r m)) (runMin t0 t1 (xs ⟨n, h⟩) (ix2 r m)) ↔ _
    rw [le_min_iff, le_accMin_iff t0 t1 xs r m c n (Nat.le_of_succ_le h), le_runMin_iff]
    constructor
    · rintro ⟨H1, H2⟩ k hk
      rcases Nat.lt_succ_iff_lt_or_eq.mp hk with hlt | heq
      · exact H1 k hlt
      · obtain rfl : k = ⟨n, h⟩ := Fin.ext heq
        exact H2
    · intro H
      exact ⟨fun k hk => H k (Nat.lt_succ_of_lt hk), H ⟨n, h⟩ (Nat.lt_succ_self n)⟩

/-- An [8] vector cast to a column [8, 1] reads, at (k, ·), the vector at `k`. -/
theorem cast_rows_apply (v : FVec Ideal S8 .f32) (h : S8.ShapeCasts S8x1) (k : Fin 8) :
    shapeCast S8x1 v h (ix2 k (0 : Fin 1)) = v (ix1 k) :=
  shapeCast_apply v h _ _ (by
    rw [Shape.rowMajor_val_two, Shape.rowMajor_val_one]
    show k.val = k.val * 1 + 0
    omega)

/-- Putting target `k` back into the reduced index (r) gives (r, k). -/
theorem lift_r (h : S8x512.Reduces [1] S8) (r : Fin 8) (k : Fin (S8x512.size 1)) :
    h.lift (ix1 r) k = ix2 r (⟨k.val, k.isLt⟩ : Fin 512) := by
  funext c; apply Fin.ext
  match c with
  | ⟨0, _⟩ => rfl
  | ⟨1, _⟩ => rfl

/-- Putting row `k` back into the reduced index (·) of a column gives (k, ·). -/
theorem lift_col (h : S8x1.Reduces [0] S1) (k : Fin (S8x1.size 0)) :
    h.lift (ix1 (0 : Fin 1)) k = ix2 (⟨k.val, k.isLt⟩ : Fin 8) (0 : Fin 1) := by
  funext c; apply Fin.ext
  match c with
  | ⟨0, _⟩ => rfl
  | ⟨1, _⟩ => rfl

/-- The stored number: over the eight rows and the 512 targets, the minimum times the weight, summed. -/
theorem total_apply (w : FVec Ideal S512 .f32) (d : FVec Ideal S8x512 .f32) :
    total w d (ix3 (0 : Fin 1) (0 : Fin 1) (0 : Fin 1)) = ∑ r : Fin 8, ∑ m : Fin 512, d (ix2 r m) * w (ix1 m) := by
  unfold total
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single _ 0x00000000#32 Gen.reduces_S8x1_S1 (.inl rfl) rfl (ix1 (0 : Fin 1))).trans ?_
  show ∑ k : Fin 8, _ = _
  refine Finset.sum_congr rfl fun r _ => ?_
  rw [lift_col Gen.reduces_S8x1_S1 r]
  refine (cast_rows_apply _ _ r).trans ?_
  refine (Ideal.multiReduction_add_single _ 0x00000000#32 Gen.reduces_S8x512_S8 (.inl rfl) rfl (ix1 r)).trans ?_
  show ∑ k : Fin 512, _ = _
  refine Finset.sum_congr rfl fun m _ => ?_
  rw [lift_r Gen.reduces_S8x512_S8 r m, mulf_apply]
  congr 1
  refine (broadcastTo_1b_ab_apply _ _ r m).trans ?_
  exact shapeCast_a_1a_apply w _ (0 : Fin 1) m

end Cert.KernelIdeal.Body

end
-- ==== Proof.ArrayValue.lean ====
/-
  From the grid points' stores to the kernel program's result.

  The output array has shape [8, 1, 1]: entry (t, 0, 0) is the one number grid point `t` stores (`pointOut`:
  `Body.blockOut` of the three blocks point `t` stages), so the array after the region is `G`, entry by entry
  (`final`: every entry is the block of exactly one point). The host then sums the eight entries from zero and divides
  by the literal 512 (`result`, `tail_eq`), and `run` re-posts the generated frame run with the result buffer at that
  value and the arguments unchanged.

  What the blocks are, in terms of the program's arguments: the arrays the region finds are the host operations before
  it applied to the arguments (`V14_eq`: the first two channels of `x`, transposed to [64, 2, 2048]; `V15_eq`: the
  targets transposed to [2, 512]; `V12_eq`: the softmin weights, one row), and point `t`'s block of the first is
  its rows `8 t` to `8 t + 7` while the other two windows are whole (`iblk0_apply`, `iblk1_apply`, `iblk2_apply`).
  The weights are carried as ONE function of the targets, never opened: the reference computes them by the same
  operations, and its generated stage `Read.val_main_v11` is used as that function's name.
-/
import proofs.«173565_j38259568673143_2_alg».proof.Proof.Gen.KernelIdeal.Frame
import proofs.«173565_j38259568673143_2_alg».proof.Proof.Gen.ReferenceIdeal.Read
import proofs.«173565_j38259568673143_2_alg».proof.Proof.BodyRead
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.ArrayValue

open Cert.KernelIdeal Cert.KernelIdeal.Gen Cert.KernelIdeal.Body

variable {F : FTy → Type} [FloatOps F]
variable (m : (ℓ : Loc nD τ sig) → Buf (Elt F) ℓ) (ρ : Dev nD → PrngReg)

/-- The softmin weights as one function of the targets. -/
abbrev weights (tg : FVec F S512x2 .f32) : FVec F S512 .f32 := Cert.ReferenceIdeal.Read.val_main_v11 (F := F) tg

/-! ## The printed index maps, decided over the eight grid points -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The arrays the region finds -/

theorem V14_eq (c : Dev nD) : (V m c main_v14 : S64x2x2048.Idx → F .f32)
    = transpose S64x2x2048 [0, 2, 1] (extractStridedSlice S64x2048x2 ![0, 0, 0] (m ((c : Thread nD τ).loc main_arg0))
        Gen.slices_S64x2048x4_S64x2048x2_0_0_0) Gen.transposes_S64x2048x2_S64x2x2048_0_2_1 := by
  dsimp only [Gen.V, Gen.V0]
  simp only [Gen.hostOps0, Gen.hostOps0_1, List.flatten_cons, List.flatten_nil, List.append_nil, List.cons_append, List.nil_append]
  after_results

theorem V15_eq (c : Dev nD) : (V m c main_v15 : S2x512.Idx → F .f32)
    = transpose S2x512 [1, 0] (m ((c : Thread nD τ).loc main_arg1)) Gen.transposes_S512x2_S2x512_1_0 := by
  dsimp only [Gen.V, Gen.V0]
  simp only [Gen.hostOps0, Gen.hostOps0_1, List.flatten_cons, List.flatten_nil, List.append_nil, List.cons_append, List.nil_append]
  after_results

theorem V12_eq (c : Dev nD) : (V m c main_v12 : S1x512.Idx → F .f32)
    = shapeCast S1x512 (weights (m ((c : Thread nD τ).loc main_arg1))) Gen.shapeCasts_S512_S1x512 := by
  dsimp only [Gen.V, Gen.V0]
  simp only [Gen.hostOps0, Gen.hostOps0_1, List.flatten_cons, List.flatten_nil, List.append_nil, List.cons_append, List.nil_append]
  after_results
  rfl

/-! ## The blocks a point stages -/

/-- Point `t`'s block of the transposed points, at (r, ch, n), is the array at (8 t + r, ch, n). -/
theorem iblk0_apply (c : Dev nD) (t : Fin cfg0.N) (r : Fin 8) (ch : Fin 2) (n : Fin 2048) (ht : t.val < 8) :
    (iblk m c 0 t : Vec F S8x2x2048 .f32) (ix3 r ch n)
      = (V m c main_v14 : S64x2x2048.Idx → F .f32) (ix3 (⟨8 * t.val + r.val, by omega⟩ : Fin 64) ch n) := by
  obtain ⟨e0, e1, e2, -⟩ := idx_facts t
  unfold iblk
  rw [View.read_apply]
  show V m c main_v14 _ = V m c main_v14 _
  congr 1
  funext a
  apply Fin.ext
  match a with
  | ⟨0, _⟩ => show win0_0.index t (0 : Fin 3) * 8 + 1 * r.val = 8 * t.val + r.val; rw [e0]; omega
  | ⟨1, _⟩ => show win0_0.index t (1 : Fin 3) * 2 + 1 * ch.val = ch.val; rw [e1]; omega
  | ⟨2, _⟩ => show win0_0.index t (2 : Fin 3) * 2048 + 1 * n.val = n.val; rw [e2]; omega

/-- The targets' window is whole: its block at any point is the array. -/
theorem iblk1_apply (c : Dev nD) (t : Fin cfg0.N) (ch : Fin 2) (k : Fin 512) :
    (iblk m c 1 t : Vec F S2x512 .f32) (ix2 ch k) = (V m c main_v15 : S2x512.Idx → F .f32) (ix2 ch k) := by
  obtain ⟨-, -, -, e0, e1, -⟩ := idx_facts t
  unfold iblk
  rw [View.read_apply]
  show V m c main_v15 _ = V m c main_v15 _
  congr 1
  funext a
  apply Fin.ext
  match a with
  | ⟨0, _⟩ => show win0_1.index t (0 : Fin 2) * 2 + 1 * ch.val = ch.val; rw [e0]; omega
  | ⟨1, _⟩ => show win0_1.index t (1 : Fin 2) * 512 + 1 * k.val = k.val; rw [e1]; omega

/-- The weights' window is whole too. -/
theorem iblk2_apply (c : Dev nD) (t : Fin cfg0.N) (u : Fin 1) (k : Fin 512) :
    (iblk m c 2 t : Vec F S1x512 .f32) (ix2 u k) = (V m c main_v12 : S1x512.Idx → F .f32) (ix2 u k) := by
  obtain ⟨-, -, -, -, -, e0, e1, -⟩ := idx_facts t
  unfold iblk
  rw [View.read_apply]
  show V m c main_v12 _ = V m c main_v12 _
  congr 1
  funext a
  apply Fin.ext
  match a with
  | ⟨0, _⟩ => show win0_2.index t (0 : Fin 2) * 1 + 1 * u.val = u.val; rw [e0]; omega
  | ⟨1, _⟩ => show win0_2.index t (1 : Fin 2) * 512 + 1 * k.val = k.val; rw [e1]; omega

/-! ## The output array after the region -/

/-- The number grid point `t` stores. -/
def pointOut (c : Dev nD) (t : Fin cfg0.N) : Elt F .f32 :=
  blockOut (wOf (iblk m c 2 t)) (t0Of (iblk m c 1 t)) (t1Of (iblk m c 1 t)) (runOf (iblk m c 0 t))
    (ix3 (0 : Fin 1) (0 : Fin 1) (0 : Fin 1))

/-- The grid point whose block holds entry `i` of the output: its leading coordinate. -/
def ptOf (i : S8x1x1.Idx) : Fin cfg0.N := ⟨(i 0).val, by rw [show cfg0.N = 8 from N_0]; exact (i 0).isLt⟩

/-- The output array after the region, entry by entry. -/
def G (c : Dev nD) : S8x1x1.Idx → Elt F .f32 := fun i => pointOut m c (ptOf i)

/-- What point `t` writes back is block `t` of `G`. -/
theorem flushed_eq (c : Dev nD) (t : Fin cfg0.N) :
    (dats m 0 c).flushed 3 t = ((cfg0.win 3).blk t).view.read (Elt F) (G m c) := by
  show (cfg0.win 3).cut (grid0.coords t) ((dats m 0 c).after 3 t) = _
  rw [after0_3]
  unfold outsAt0
  rw [out_eq]
  obtain ⟨-, -, -, -, -, -, -, e0, e1, e2⟩ := idx_facts t
  funext j
  have h0 : (j 0).val < 1 := (j 0).isLt
  have h1 : (j 1).val < 1 := (j 1).isLt
  have h2 : (j 2).val < 1 := (j 2).isLt
  have hj : j = ix3 (0 : Fin 1) (0 : Fin 1) (0 : Fin 1) := funext fun a => Fin.ext (by
    match a with
    | ⟨0, _⟩ => show (j 0).val = 0; omega
    | ⟨1, _⟩ => show (j 1).val = 0; omega
    | ⟨2, _⟩ => show (j 2).val = 0; omega)
  have hp : ptOf (((cfg0.win 3).blk t).view.emb j) = t := Fin.ext (by
    show win0_3.index t (0 : Fin 3) * 1 + 1 * (j 0).val = t.val
    rw [e0]; omega)
  show blockOut _ _ _ _ j = pointOut m c (ptOf (((cfg0.win 3).blk t).view.emb j))
  rw [hp, hj]
  rfl

/-- An index of the output is in point `t`'s block iff each coordinate is in the block's range on its axis. -/
theorem mem_blk (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v16).slice (win0_3.rect t)).set ↔ _
  rw [View.set_slice_whole, Rect.mem_set_unit]
  exact Iff.rfl

/-- So the output array ends holding `G`. -/
theorem final (c : Dev nD) : (dats m 0 c).arrAt 3 cfg0.N = G m c :=
  (dats m 0 c).arrAt_eq_of_cover 3 (G m c) (fun t _ => flushed_eq m c t) fun i =>
    ⟨ptOf i, flush0_3 (ptOf i), by
      rw [mem_blk]
      obtain ⟨-, -, -, -, -, -, -, e0, e1, e2⟩ := idx_facts (ptOf i)
      have h1 : (i 1).val < 1 := (i 1).isLt
      have h2 : (i 2).val < 1 := (i 2).isLt
      intro a
      match a with
      | ⟨0, _⟩ => show win0_3.index (ptOf i) (0 : Fin 3) * 1 ≤ (i 0).val ∧ (i 0).val < win0_3.index (ptOf i) (0 : Fin 3) * 1 + 1; rw [e0]; show (i 0).val * 1 ≤ (i 0).val ∧ (i 0).val < (i 0).val * 1 + 1; omega
      | ⟨1, _⟩ => show win0_3.index (ptOf i) (1 : Fin 3) * 1 ≤ (i 1).val ∧ (i 1).val < win0_3.index (ptOf i) (1 : Fin 3) * 1 + 1; rw [e1]; omega
      | ⟨2, _⟩ => show win0_3.index (ptOf i) (2 : Fin 3) * 1 ≤ (i 2).val ∧ (i 2).val < win0_3.index (ptOf i) (2 : Fin 3) * 1 + 1; rw [e2]; omega⟩

/-! ## The host's tail and the run -/

/-- The program's result: the eight stored numbers summed from zero, divided by 512. -/
def result (c : Dev nD) : S_.Idx → Elt F .f32 :=
  Host.divf (F := F) (Host.reduceAdd (F := F) (G m c) (constant (F := F) S_ .f32 0x00000000#32) Gen.reducesTo_S8x1x1_S_d0_1_2 Gen.h_S_)
    (constant (F := F) S_ .f32 0x44000000#32)

theorem tail_eq (c : Dev nD) : Pipeline.afterTail₀ cfgs (dats m) 0 (V0 m) [hostOps1] c main_v18 = result m c := by
  unfold Pipeline.afterTail₀
  show StableHlo.after hostOps1 _ (Proc.devRef .tc main_v18) = _
  after_results
  unfold result
  rw [(Pipeline.withArrays_arr spec0 launch0.win.arr_inj c _ _ 3).trans (final m c)]

/-- The frame run re-posted: the result buffer at `result`, the arguments unchanged. -/
theorem run : θ_run defs (onTc (τ := τ) (main (F := F))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v18 (Pipeline.mem_restRefs_of main_v18 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.ArrayValue

end
-- ==== Proof.Loss.lean ====
/-
  The loss, stated once over the two argument arrays, and the identity between its two arrangements.

  `x` is the [64, 2048, 4] array of trajectory points (only channels 0 and 1 are used), `tg` the [512, 2] array of
  targets, `w` the 512 weights. `minDist x tg b k` is the least squared planar distance from target `k` to the 2048
  points of row `b`, from `+inf`; `rowTotal` weights it and sums over the targets. One program sums the rows in eight
  groups of eight and divides the grand total by 512; the other divides each row's total by 512 and sums the 64
  quotients. `loss_eq`: these are the same extended real, whatever the values, by `sum_groups` and `div512_sum`
  (both sums start from a zero, which adds nothing).
-/
import proofs.«173565_j38259568673143_2_alg».proof.Proof.Spec
import Idealize.ShloMosaic.Lib.ValueIdx

noncomputable section

namespace Cert.Chamfer

open Idealize.ShloMosaic Idealize.ShloMosaic.ValueIdx

/-- The least squared distance from target `k` to the points of row `b`. -/
def minDist (x : (⟨3, ![64, 2048, 4]⟩ : Shape).Idx → EReal) (tg : (⟨2, ![512, 2]⟩ : Shape).Idx → EReal) (b : Fin 64) (k : Fin 512) : EReal :=
  (Finset.univ : Finset (Fin 2048)).fold min ⊤ (fun n =>
    sqd (x (ix3 b n (0 : Fin 4))) (x (ix3 b n (1 : Fin 4))) (tg (ix2 k (0 : Fin 2))) (tg (ix2 k (1 : Fin 2))))

/-- Row `b`'s weighted total over the targets. -/
def rowTotal (x : (⟨3, ![64, 2048, 4]⟩ : Shape).Idx → EReal) (tg : (⟨2, ![512, 2]⟩ : Shape).Idx → EReal) (w : Fin 512 → EReal) (b : Fin 64) : EReal :=
  ∑ k : Fin 512, minDist x tg b k * w k

/-- The grand total over eight groups of eight rows, divided by 512, is the sum of the 64 rows' totals each divided by 512. -/
theorem loss_eq (a : Fin 64 → EReal) :
    Ideal.div (0 + ∑ t : Fin 8, ∑ r : Fin 8, a ⟨8 * t.val + r.val, by omega⟩) ((512 : ℝ) : EReal)
      = 0 + ∑ b : Fin 64, Ideal.div (0 + a b) ((512 : ℝ) : EReal) := by
  simp only [zero_add]
  rw [sum_groups, div512_sum]

end Cert.Chamfer

end
-- ==== Proof.PointValue.lean ====
/-
  The number one grid point stores, in terms of the program's arguments.

  Stated over variables: if the staged block `X0` holds rows `8 t` to `8 t + 7` of the points' first two channels
  (channel before place), `X1` holds the targets (coordinate before target) and `X2` holds the weights as one row, then
  the stored number is the sum over the eight rows of `Chamfer.rowTotal`. The minimum is the only step that is not
  entry-by-entry: the running minimum after all sixteen runs has exactly the lower bounds of the minimum over all 2048
  points (`Body.le_accMin_iff` and `Chamfer.eq_fold_min_of_runs`), so they are equal.
-/
import proofs.«173565_j38259568673143_2_alg».proof.Proof.BodyRead
import proofs.«173565_j38259568673143_2_alg».proof.Proof.Loss

noncomputable section

namespace Cert.KernelIdeal.Body

open Idealize.ShloMosaic Idealize.ShloMosaic.ValueIdx Cert.KernelIdeal Cert.KernelIdeal.Gen Cert.Chamfer

/-- The final running minimum at (r, k) is the least squared distance from target `k` to the points of row `8 t + r`. -/
theorem accMin_final (X0 : Vec Ideal S8x2x2048 .f32) (X1 : Vec Ideal S2x512 .f32)
    (x : (⟨3, ![64, 2048, 4]⟩ : Shape).Idx → EReal) (tg : (⟨2, ![512, 2]⟩ : Shape).Idx → EReal) (t : ℕ) (ht : t < 8)
    (h0 : ∀ (r : Fin 8) (ch : Fin 2) (n : Fin 2048),
      X0 (ix3 r ch n) = x (ix3 (⟨8 * t + r.val, by omega⟩ : Fin 64) n (⟨ch.val, by omega⟩ : Fin 4)))
    (h1 : ∀ (ch : Fin 2) (k : Fin 512), X1 (ix2 ch k) = tg (ix2 k ch)) (r : Fin 8) (k : Fin 512) :
    accMin (F := Ideal) (t0Of X1) (t1Of X1) (runOf X0) 16 le_rfl (ix2 r k) = minDist x tg (⟨8 * t + r.val, by omega⟩ : Fin 64) k := by
  unfold minDist
  refine eq_fold_min_of_runs _ _ fun c => ?_
  rw [le_accMin_iff]
  have e : ∀ (q : Fin 16) (l : Fin 128),
      sqd (runOf (F := Ideal) X0 q (ix3 r (0 : Fin 2) l)) (runOf (F := Ideal) X0 q (ix3 r (1 : Fin 2) l))
          (t0Of (F := Ideal) X1 (ix3 (0 : Fin 1) k (0 : Fin 1))) (t1Of (F := Ideal) X1 (ix3 (0 : Fin 1) k (0 : Fin 1)))
        = sqd (x (ix3 (⟨8 * t + r.val, by omega⟩ : Fin 64) (⟨128 * q.val + l.val, by omega⟩ : Fin 2048) (0 : Fin 4)))
            (x (ix3 (⟨8 * t + r.val, by omega⟩ : Fin 64) (⟨128 * q.val + l.val, by omega⟩ : Fin 2048) (1 : Fin 4)))
            (tg (ix2 k (0 : Fin 2))) (tg (ix2 k (1 : Fin 2))) := by
    intro q l
    rw [runOf_apply, runOf_apply, h0, h0, t0Of_apply, t1Of_apply, h1, h1]
    rfl
  constructor
  · intro H q l
    rw [← e q l]
    exact H q q.isLt l
  · intro H q _ l
    rw [e q l]
    exact H q l

/-- The stored number is the eight rows' weighted totals, summed. -/
theorem point_value (X0 : Vec Ideal S8x2x2048 .f32) (X1 : Vec Ideal S2x512 .f32) (X2 : Vec Ideal S1x512 .f32)
    (x : (⟨3, ![64, 2048, 4]⟩ : Shape).Idx → EReal) (tg : (⟨2, ![512, 2]⟩ : Shape).Idx → EReal) (w : Fin 512 → EReal)
    (t : ℕ) (ht : t < 8)
    (h0 : ∀ (r : Fin 8) (ch : Fin 2) (n : Fin 2048),
      X0 (ix3 r ch n) = x (ix3 (⟨8 * t + r.val, by omega⟩ : Fin 64) n (⟨ch.val, by omega⟩ : Fin 4)))
    (h1 : ∀ (ch : Fin 2) (k : Fin 512), X1 (ix2 ch k) = tg (ix2 k ch))
    (h2 : ∀ k : Fin 512, X2 (ix2 (0 : Fin 1) k) = w k) :
    blockOut (F := Ideal) (wOf X2) (t0Of X1) (t1Of X1) (runOf X0) (ix3 (0 : Fin 1) (0 : Fin 1) (0 : Fin 1))
      = ∑ r : Fin 8, rowTotal x tg w (⟨8 * t + r.val, by omega⟩ : Fin 64) := by
  unfold blockOut
  rw [total_apply]
  refine Finset.sum_congr rfl fun r _ => ?_
  unfold rowTotal
  refine Finset.sum_congr rfl fun k _ => ?_
  rw [accMin_final X0 X1 x tg t ht h0 h1 r k, wOf_apply, h2]

end Cert.KernelIdeal.Body

end
-- ==== Proof.IdxSums.lean ====
/-
  Sums over the index sets of two small shapes, as sums over a coordinate.

  The index set of a shape [n] is its one coordinate's range, and so is that of a column shape [n, 1, 1], whose two
  trailing coordinates can only be zero. A sum over either is therefore a sum over `Fin n`.
-/
import Idealize.ShloMosaic.Lib.ValueIdx

noncomputable section

namespace Cert.Chamfer

open Idealize.ShloMosaic Idealize.ShloMosaic.ValueIdx

/-- The indices of [n] are the values of the one coordinate. -/
def idxEquiv1 {n : Nat} : (⟨1, ![n]⟩ : Shape).Idx ≃ Fin n where
  toFun i := i 0
  invFun k := ix1 k
  left_inv i := (eq_ix1 i).symm
  right_inv _ := rfl

/-- A sum over the indices of [n] is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of [n, 1, 1] are the values of the leading coordinate. -/
def idxEquivCol {n : Nat} : (⟨3, ![n, 1, 1]⟩ : Shape).Idx ≃ Fin n where
  toFun i := i 0
  invFun k := ix3 k (0 : Fin 1) (0 : Fin 1)
  left_inv i := funext fun a => Fin.ext (by
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega)
  right_inv _ := rfl

/-- A sum over the indices of [n, 1, 1] is the sum over the leading coordinate. -/
theorem sum_idxCol {M : Type*} [AddCommMonoid M] {n : Nat} (f : (⟨3, ![n, 1, 1]⟩ : Shape).Idx → M) :
    ∑ i, f i = ∑ k : Fin n, f (ix3 k (0 : Fin 1) (0 : Fin 1)) := by
  rw [← Equiv.sum_comp (idxEquivCol (n := n)).symm f]
  rfl

end Cert.Chamfer

end
-- ==== Proof.KernelRead.lean ====
/-
  The kernel program's result in terms of its arguments, at the ideal instance.

  The arrays the region finds are re-layings of the arguments: the staged points at (b, ch, n) are `x` at (b, n, ch)
  (`V14_apply`), the staged targets at (ch, k) are `tg` at (k, ch) (`V15_apply`), the staged weights at (·, k) are the
  weights at `k` (`V12_apply`). So each grid point stores its eight rows' weighted totals (`pointOut_eq`, from
  `Body.point_value`), and the program's result is the 64 rows' totals summed in eight groups from zero, divided by
  512 (`result_apply`).
-/
import proofs.«173565_j38259568673143_2_alg».proof.Proof.ArrayValue
import proofs.«173565_j38259568673143_2_alg».proof.Proof.PointValue
import proofs.«173565_j38259568673143_2_alg».proof.Proof.IdxSums

noncomputable section

open Idealize.ShloMosaic Idealize.ShloMosaic.TcCoe Idealize.ShloMosaic.ValueIdx Idealize.SL.Sem

namespace Cert.KernelIdeal.ArrayValue

open Cert.KernelIdeal Cert.KernelIdeal.Gen Cert.KernelIdeal.Body Cert.Chamfer

variable (m : (ℓ : Loc nD τ sig) → Buf (Elt Ideal) ℓ)

/-- The points, as launched. -/
abbrev xArg (c : Dev nD) : FVec Ideal S64x2048x4 .f32 := m ((c : Thread nD τ).loc main_arg0)
/-- The targets, as launched. -/
abbrev tArg (c : Dev nD) : FVec Ideal S512x2 .f32 := m ((c : Thread nD τ).loc main_arg1)

/-- The staged points at (b, ch, n) are the points at (b, n, ch). -/
theorem V14_apply (c : Dev nD) (b : Fin 64) (ch : Fin 2) (n : Fin 2048) :
    (V m c main_v14 : S64x2x2048.Idx → EReal) (ix3 b ch n) = xArg m c (ix3 b n (⟨ch.val, by omega⟩ : Fin 4)) := by
  rw [V14_eq]
  refine (transpose_ix3_021_apply _ _ b ch n).trans ?_
  exact extractStridedSlice_apply _ _ _ (ix3 b n ch) (ix3 b n (⟨ch.val, by omega⟩ : Fin 4)) (fun a => match a with
    | ⟨0, _⟩ => by show b.val = 0 + b.val; omega
    | ⟨1, _⟩ => by show n.val = 0 + n.val; omega
    | ⟨2, _⟩ => by show ch.val = 0 + ch.val; omega)

/-- The staged targets at (ch, k) are the targets at (k, ch). -/
theorem V15_apply (c : Dev nD) (ch : Fin 2) (k : Fin 512) :
    (V m c main_v15 : S2x512.Idx → EReal) (ix2 ch k) = tArg m c (ix2 k ch) := by
  rw [V15_eq]
  exact transpose_ix2_apply _ _ ch k

/-- The staged weights at (·, k) are the weights at `k`. -/
theorem V12_apply (c : Dev nD) (k : Fin 512) :
    (V m c main_v12 : S1x512.Idx → EReal) (ix2 (0 : Fin 1) k) = weights (tArg m c) (ix1 k) := by
  rw [V12_eq]
  exact shapeCast_a_1a_apply _ _ (0 : Fin 1) k

/-- Grid point `t` stores the weighted totals of rows `8 t` to `8 t + 7`, summed. -/
theorem pointOut_eq (c : Dev nD) (t : Fin cfg0.N) (ht : t.val < 8) :
    pointOut m c t = ∑ r : Fin 8, rowTotal (xArg m c) (tArg m c) (fun k => weights (tArg m c) (ix1 k)) (⟨8 * t.val + r.val, by omega⟩ : Fin 64) :=
  point_value (iblk m c 0 t) (iblk m c 1 t) (iblk m c 2 t) (xArg m c) (tArg m c) (fun k => weights (tArg m c) (ix1 k)) t.val ht
    (fun r ch n => (iblk0_apply m c t r ch n ht).trans (V14_apply m c _ ch n))
    (fun ch k => (iblk1_apply m c t ch k).trans (V15_apply m c ch k))
    (fun k => (iblk2_apply m c t (0 : Fin 1) k).trans (V12_apply m c k))

/-- The kernel program's result. -/
theorem result_apply (c : Dev nD) (i : S_.Idx) :
    result m c i = Ideal.div (0 + ∑ t : Fin 8, ∑ r : Fin 8,
      rowTotal (xArg m c) (tArg m c) (fun k => weights (tArg m c) (ix1 k)) (⟨8 * t.val + r.val, by omega⟩ : Fin 64)) ((512 : ℝ) : EReal) := by
  have hsum : Host.reduceAdd (F := Ideal) (G m c) (constant (F := Ideal) S_ .f32 0x00000000#32) Gen.reducesTo_S8x1x1_S_d0_1_2 Gen.h_S_ i
      = Ideal.ofBits .f32 0x00000000#32 + ∑ j : S8x1x1.Idx, G m c j := by
    simp only [Host.reduceAdd, Ideal.hostReduceAdd_def]
    exact Ideal.hostReduceAdd_total Gen.reducesTo_S8x1x1_S_d0_1_2 (fun b => b.elim0) (G m c) _ i
  show Ideal.div (Host.reduceAdd (F := Ideal) (G m c) (constant (F := Ideal) S_ .f32 0x00000000#32) Gen.reducesTo_S8x1x1_S_d0_1_2 Gen.h_S_ i)
    (Ideal.ofBits .f32 0x44000000#32) = _
  rw [hsum, ofBits_zero, ofBits_512, sum_idxCol]
  refine congrArg (fun s : EReal => Ideal.div (0 + s) ((512 : ℝ) : EReal)) ?_
  refine Finset.sum_congr rfl fun t _ => ?_
  exact pointOut_eq m c (ptOf (ix3 t (0 : Fin 1) (0 : Fin 1))) t.isLt

end Cert.KernelIdeal.ArrayValue

end
-- ==== Proof.RefValue.lean ====
/-
  The reference program's result, read stage by stage at the ideal instance.

  The reference spreads the points' first two channels and the targets over a [64, 512, 2048, 2] array of differences,
  squares, sums the two channels from zero, takes the minimum along the 2048 points from `+inf`, multiplies by the
  softmin weights spread over the rows, sums along the targets from zero, divides each row's sum by the literal 512, and
  sums the 64 quotients from zero. Read through the generated one-operation lemmas:
    * the squared difference at (b, k, n, ch) is `(x (b, n, ch) - tg (k, ch))²` (`sq_apply`);
    * the two channels' sum from zero is the squared planar distance (`dist_apply`);
    * the minimum along the points is `Chamfer.minDist` (`min_apply`);
    * so the result is `0 + ∑ b, (0 + rowTotal b) / 512` with the weights the stage `val_main_v11` of the targets
      (`result_apply`), which is never opened.
-/
import proofs.«173565_j38259568673143_2_alg».proof.Proof.Gen.ReferenceIdeal.Read
import proofs.«173565_j38259568673143_2_alg».proof.Proof.Loss
import proofs.«173565_j38259568673143_2_alg».proof.Proof.IdxSums
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Chamfer

variable (x0 : FVec Ideal S64x2048x4 .f32) (x1 : FVec Ideal S512x2 .f32)

/-- The squared difference at (b, k, n, ch): the point's channel minus the target's coordinate, squared. -/
theorem sq_apply (b : Fin 64) (k : Fin 512) (n : Fin 2048) (ch : Fin 2) :
    val_main_v18 (F := Ideal) x0 x1 (ix4 b k n ch)
      = (x0 (ix3 b n (⟨ch.val, by omega⟩ : Fin 4)) - x1 (ix2 k ch)) * (x0 (ix3 b n (⟨ch.val, by omega⟩ : Fin 4)) - x1 (ix2 k ch)) := by
  have e0 : idx_main_v12 (idx_main_v13 (idx_main_v15 (ix4 b k n ch))) = ix3 b n (⟨ch.val, by omega⟩ : Fin 4) :=
    funext fun a => Fin.ext (by match a with | ⟨0, _⟩ => rfl | ⟨1, _⟩ => rfl | ⟨2, _⟩ => rfl)
  have e1 : idx_main_v14 (idx_main_v16 (ix4 b k n ch)) = ix2 k ch :=
    funext fun a => Fin.ext (by match a with | ⟨0, _⟩ => rfl | ⟨1, _⟩ => rfl)
  rw [val_main_v18_apply, val_main_v17_apply, val_main_v15_apply, val_main_v13_apply, val_main_v12_apply,
    val_main_v16_apply, val_main_v14_apply, e0, e1]
  rfl

/-- The two channels summed from zero: the squared planar distance between point `n` of row `b` and target `k`. -/
theorem dist_apply (b : Fin 64) (k : Fin 512) (n : Fin 2048) :
    val_main_v19 (F := Ideal) x0 x1 (ix3 b k n)
      = sqd (x0 (ix3 b n (0 : Fin 4))) (x0 (ix3 b n (1 : Fin 4))) (x1 (ix2 k (0 : Fin 2))) (x1 (ix2 k (1 : Fin 2))) := by
  have e : ∀ ch : Fin 2, idx_main_v19 (ix3 b k n) ch = ix4 b k n ch := fun ch =>
    funext fun a => Fin.ext (by match a with | ⟨0, _⟩ => rfl | ⟨1, _⟩ => rfl | ⟨2, _⟩ => rfl | ⟨3, _⟩ => rfl)
  rw [val_main_v19_apply, Fin.sum_univ_two, e, e, sq_apply, sq_apply, val_main_cst_2_apply]
  show Ideal.ofBits .f32 0x00000000#32 + _ = _
  rw [ofBits_zero, zero_add]
  rfl

/-- Putting point `n` back into the reduced index (b, k) gives (b, k, n). -/
theorem lift_bk (h : S64x512x2048.Reduces [2] S64x512) (b : Fin 64) (k : Fin 512) (n : Fin (S64x512x2048.size 2)) :
    h.lift (ix2 b k) n = ix3 b k (⟨n.val, n.isLt⟩ : Fin 2048) := by
  funext c; apply Fin.ext
  match c with
  | ⟨0, _⟩ => rfl
  | ⟨1, _⟩ => rfl
  | ⟨2, _⟩ => rfl

/-- The minimum along the points, from `+inf`. -/
theorem min_apply (b : Fin 64) (k : Fin 512) :
    val_main_v20 (F := Ideal) x0 x1 (ix2 b k) = minDist x0 x1 b k := by
  unfold val_main_v20 minDist
  have hR : S64x512x2048.Reduces [2] S64x512 := by decide
  refine (Host.reduce_eq_fold_single FloatOps.minimumf _ _ Gen.reducesTo_S64x512x2048_S64x512_d2 hR Gen.h_S_ (ix2 b k)).trans ?_
  show (Finset.univ : Finset (Fin 2048)).fold min (Ideal.ofBits .f32 0x7F800000#32) (val_main_v19 (F := Ideal) x0 x1 ∘ hR.lift (ix2 b k)) = _
  rw [ofBits_inf]
  refine congrArg (fun f => Finset.fold min (⊤ : EReal) f (Finset.univ : Finset (Fin 2048))) (funext fun n => ?_)
  show val_main_v19 (F := Ideal) x0 x1 (hR.lift (ix2 b k) n) = _
  rw [lift_bk hR b k n]
  exact dist_apply x0 x1 b k n

/-- The weight that multiplies entry (b, k): the stage of the targets at `k`. -/
theorem weight_apply (b : Fin 64) (k : Fin 512) :
    val_main_v22 (F := Ideal) x1 (ix2 b k) = val_main_v11 (F := Ideal) x1 (ix1 k) := by
  have e : idx_main_v21 (idx_main_v22 (ix2 b k)) = ix1 k :=
    funext fun a => Fin.ext (by match a with | ⟨0, _⟩ => rfl)
  rw [val_main_v22_apply, val_main_v21_apply, e]

/-- A row's quotient: its weighted total from zero, divided by 512. -/
theorem row_apply (b : Fin 64) :
    val_main_v26 (F := Ideal) x0 x1 (ix1 b)
      = Ideal.div (0 + rowTotal x0 x1 (fun k => val_main_v11 (F := Ideal) x1 (ix1 k)) b) ((512 : ℝ) : EReal) := by
  have e : ∀ k : Fin 512, idx_main_v24 (ix1 b) k = ix2 b k := fun k =>
    funext fun a => Fin.ext (by match a with | ⟨0, _⟩ => rfl | ⟨1, _⟩ => rfl)
  rw [val_main_v26_apply, val_main_v24_apply, val_main_v25_apply, val_main_cst_5_apply, val_main_cst_4_apply]
  show Ideal.div (Ideal.ofBits .f32 0x00000000#32 + _) (Ideal.ofBits .f32 0x44000000#32) = _
  rw [ofBits_zero, ofBits_512]
  unfold rowTotal
  refine congrArg (fun s : EReal => Ideal.div (0 + s) ((512 : ℝ) : EReal)) ?_
  refine Finset.sum_congr rfl fun k _ => ?_
  rw [e k, val_main_v23_apply, min_apply, weight_apply]
  rfl

/-- The reference's result. -/
theorem result_apply (i : S_.Idx) :
    val_main_v27 (F := Ideal) x0 x1 i
      = 0 + ∑ b : Fin 64, Ideal.div (0 + rowTotal x0 x1 (fun k => val_main_v11 (F := Ideal) x1 (ix1 k)) b) ((512 : ℝ) : EReal) := by
  rw [val_main_v27_apply, val_main_cst_6_apply]
  show Ideal.ofBits .f32 0x00000000#32 + _ = _
  rw [ofBits_zero, sum_idx1]
  refine congrArg (fun s : EReal => 0 + s) ?_
  exact Finset.sum_congr rfl fun b _ => row_apply x0 x1 b

end Cert.ReferenceIdeal.RefValue

end
-- ==== Proof.lean ====
/-
  A chamfer-style loss: a Pallas kernel against its jnp reference, equal over the extended reals.

  Both programs take trajectory points `x` of shape [64, 2048, 4] and targets `tg` of shape [512, 2]. For each batch row
  `b` and target `k` they take the least squared planar distance from the target to the row's 2048 points (channels 0
  and 1), weight it by the target's softmin weight (a softmax of the negated target norms, computed on the host by the
  same operations in both programs), and average over the targets and sum over the rows.

  The kernel lays the points out as [64, 2, 2048], handles eight rows per grid point, takes each minimum in sixteen
  runs of 128 points with a running minimum from `+inf`, stores one number per grid point (its eight rows' weighted
  totals), and the host sums the eight numbers and divides by 512. The reference takes each minimum over the 2048
  points at once, divides every row's weighted total by 512 and sums the 64 quotients.

  At the ideal instance the two results are one extended real for ALL argument values, finite or not:
    * a minimum taken in runs is the minimum (only the order structure of the extended reals is used);
    * sums may be regrouped (the extended reals' addition is commutative and associative);
    * division by 512 moves across a finite sum because multiplication by a nonnegative real distributes over the
      extended reals' addition at every pair of values.
  So the precondition (finite inputs) is never opened. The modules: Spec (these laws), RunMin / Body / BodyRead /
  PointValue (what one grid point stores), ArrayValue / KernelRead (the kernel program's result), RefValue (the
  reference's result), Loss (the identity that joins them). The frames are the generated ones; the reference's frame is
  its generated run with the result dropped; the ideal pass rewrote nothing, so `preserves` is `True`.
-/
import proofs.«173565_j38259568673143_2_alg».proof.Defs
import proofs.«173565_j38259568673143_2_alg».proof.Proof.Gen.Kernel
import proofs.«173565_j38259568673143_2_alg».proof.Proof.Gen.Kernel.Skeleton
import proofs.«173565_j38259568673143_2_alg».proof.Proof.Gen.Kernel.Launch
import proofs.«173565_j38259568673143_2_alg».proof.Proof.Gen.Kernel.Points
import proofs.«173565_j38259568673143_2_alg».proof.Proof.Gen.Kernel.Frame
import proofs.«173565_j38259568673143_2_alg».proof.Proof.Gen.KernelIdeal
import proofs.«173565_j38259568673143_2_alg».proof.Proof.Gen.KernelIdeal.Skeleton
import proofs.«173565_j38259568673143_2_alg».proof.Proof.Gen.KernelIdeal.Launch
import proofs.«173565_j38259568673143_2_alg».proof.Proof.Gen.KernelIdeal.Points
import proofs.«173565_j38259568673143_2_alg».proof.Proof.Gen.KernelIdeal.Frame
import proofs.«173565_j38259568673143_2_alg».proof.Proof.Gen.ReferenceIdeal
import proofs.«173565_j38259568673143_2_alg».proof.Proof.Gen.ReferenceIdeal.Run
import proofs.«173565_j38259568673143_2_alg».proof.Proof.Gen.ReferenceIdeal.Read
import proofs.«173565_j38259568673143_2_alg».proof.Proof.Gen.Pre_finite_inputs
import proofs.«173565_j38259568673143_2_alg».proof.Proof.KernelRead
import proofs.«173565_j38259568673143_2_alg».proof.Proof.RefValue
import proofs.«173565_j38259568673143_2_alg».proof.Proof.Loss
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result's value dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel is the kernel's own text read at the ideal instance: nothing was rewritten. -/
theorem preserves : Cert.preserves_Kernel_KernelIdeal := trivial

/-- From arguments that agree, both idealized programs end with the same extended real: the kernel's grand total
    divided by 512 is the reference's sum of per-row quotients (`Chamfer.loss_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.result m c, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _ _).trans ?_
  rw [(hagree c).1, (hagree c).2]
  funext i
  show Cert.ReferenceIdeal.Read.val_main_v27 (F := Ideal) _ _ i = Cert.KernelIdeal.ArrayValue.result m c i
  rw [Cert.ReferenceIdeal.RefValue.result_apply, Cert.KernelIdeal.ArrayValue.result_apply]
  exact (Cert.Chamfer.loss_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
